-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x2048 : Shape := ⟨2, ![4096, 2048]⟩
abbrev S2048 : Shape := ⟨1, ![2048]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S2048 : S_.BroadcastsInDim S2048 (![] : Fin 0 → Fin S2048.rank)
  reducesTo_S2048_S_d0 : S2048.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8192x4096 .f32) (main_arg1 : FVec F S4096x2048 .f32) (main_arg2 : FVec F S2048 .f32) (main_arg3 : FVec F S4096x2048 .f32) (main_arg4 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_v13 main_v16
-- ==== Kernel.lean ====
abbrev S8192x4096 : Shape := ⟨2, ![8192, 4096]⟩
abbrev S4096x2048 : Shape := ⟨2, ![4096, 2048]⟩
abbrev S2048 : Shape := ⟨1, ![2048]⟩
abbrev S4096 : Shape := ⟨1, ![4096]⟩
abbrev S1x2048 : Shape := ⟨2, ![1, 2048]⟩
abbrev S2048x4096 : Shape := ⟨2, ![2048, 4096]⟩
abbrev S1x4096 : Shape := ⟨2, ![1, 4096]⟩
abbrev S128x4096 : Shape := ⟨2, ![128, 4096]⟩
abbrev S128x2048 : Shape := ⟨2, ![128, 2048]⟩

abbrev nBuf : Space → Nat
  | .hbm => 14
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S4096, .f32⟩
  | .hbm, ⟨5, _⟩ => ⟨S8192x4096, .bf16⟩
  | .hbm, ⟨6, _⟩ => ⟨S1x2048, .f32⟩
  | .hbm, ⟨7, _⟩ => ⟨S4096x2048, .f32⟩
  | .hbm, ⟨8, _⟩ => ⟨S4096x2048, .f32⟩
  | .hbm, ⟨9, _⟩ => ⟨S4096x2048, .bf16⟩
  | .hbm, ⟨10, _⟩ => ⟨S2048x4096, .f32⟩
  | .hbm, ⟨11, _⟩ => ⟨S2048x4096, .bf16⟩
  | .hbm, ⟨12, _⟩ => ⟨S1x4096, .f32⟩
  | .hbm, ⟨13, _⟩ => ⟨S8192x4096, .f32⟩
  | .local _ .vmem, ⟨0, _⟩ => ⟨S128x4096, .bf16⟩
  | .local _ .vmem, ⟨1, _⟩ => ⟨S128x4096, .bf16⟩
  | .local _ .vmem, ⟨2, _⟩ => ⟨S4096x2048, .bf16⟩
  | .local _ .vmem, ⟨3, _⟩ => ⟨S2048x4096, .bf16⟩
  | .local _ .vmem, ⟨4, _⟩ => ⟨S1x4096, .f32⟩
  | .local _ .vmem, ⟨5, _⟩ => ⟨S128x4096, .f32⟩
  | .local _ .vmem, ⟨6, _⟩ => ⟨S128x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  transposes_S4096x2048_S2048x4096_1_0 : S4096x2048.Transposes [1, 0] S2048x4096
  shapeCasts_S4096_S1x4096 : S4096.ShapeCasts S1x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  dot_S128x4096_S4096x2048_S128x2048_1_0_0_1_n_n_wf : DotDims.WF S128x4096 S4096x2048 S128x2048 [1] [0] [0] [1] [] []
  dot_S128x2048_S2048x4096_S128x4096_1_0_0_1_n_n_wf : DotDims.WF S128x2048 S2048x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .bf16 = 32 ∨ (Rect.block (s := S8192x4096) S128x4096.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x2048.size a ≤ S4096x2048.size a
  hwx0_1 : ∀ i : grid0.Coords, EltTy.bits .bf16 = 32 ∨ (Rect.block (s := S4096x2048) S4096x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x4096.size a ≤ S2048x4096.size a
  hwx0_2 : ∀ i : grid0.Coords, EltTy.bits .bf16 = 32 ∨ (Rect.block (s := S2048x4096) S2048x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S8192x4096.size a
  hwx0_4 : ∀ i : grid0.Coords, EltTy.bits .f32 = 32 ∨ (Rect.block (s := S8192x4096) S128x4096.size (cc0_transform_4 i) (hinb0_4 i)).WholeWords (EltTy.packing .f32)

variable [Facts₀]

def dot_S128x4096_S4096x2048_S128x2048_1_0_0_1_n_n : DotDims S128x4096 S4096x2048 S128x2048 where
  lhsContracting := [1]
  rhsContracting := [0]
  lhsNonContracting := [0]
  rhsNonContracting := [1]
  lhsBatch := []
  rhsBatch := []
  wf := dot_S128x4096_S4096x2048_S128x2048_1_0_0_1_n_n_wf
def dot_S128x2048_S2048x4096_S128x4096_1_0_0_1_n_n : DotDims S128x2048 S2048x4096 S128x4096 where
  lhsContracting := [1]
  rhsContracting := [0]
  lhsNonContracting := [0]
  rhsNonContracting := [1]
  lhsBatch := []
  rhsBatch := []
  wf := dot_S128x2048_S2048x4096_S128x4096_1_0_0_1_n_n_wf

abbrev win0_0 : Pipeline.Window sig grid0 :=
  Pipeline.Window.ofSpec (Memref.whole main_v0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4096x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2048x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S128x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x2048 : Shape := ⟨2, ![4096, 2048]⟩
abbrev S2048 : Shape := ⟨1, ![2048]⟩
abbrev S4096 : Shape := ⟨1, ![4096]⟩
abbrev S8192x2048 : Shape := ⟨2, ![8192, 2048]⟩
abbrev S1x2048 : Shape := ⟨2, ![1, 2048]⟩
abbrev S2048x4096 : Shape := ⟨2, ![2048, 4096]⟩
abbrev S1x4096 : Shape := ⟨2, ![1, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S4096, .f32⟩
  | .hbm, ⟨5, _⟩ => ⟨S8192x2048, .f32⟩
  | .hbm, ⟨6, _⟩ => ⟨S1x2048, .f32⟩
  | .hbm, ⟨7, _⟩ => ⟨S8192x2048, .f32⟩
  | .hbm, ⟨8, _⟩ => ⟨S8192x2048, .f32⟩
  | .hbm, ⟨9, _⟩ => ⟨S2048x4096, .f32⟩
  | .hbm, ⟨10, _⟩ => ⟨S8192x4096, .f32⟩
  | .hbm, ⟨11, _⟩ => ⟨S1x4096, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_cst : Ref sig .tc := ⟨.hbm, 14, rfl⟩
abbrev main_call0_v0 : Ref sig .tc := ⟨.hbm, 15, rfl⟩
abbrev main_v9 : Ref sig .tc := ⟨.hbm, 16, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  transposes_S4096x2048_S2048x4096_1_0 : S4096x2048.Transposes [1, 0] S2048x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x4096_S4096x2048_S8192x2048_1_0_0_1_n_n_wf : DotDims.WF S8192x4096 S4096x2048 S8192x2048 [1] [0] [0] [1] [] []
  dot_S8192x2048_S2048x4096_S8192x4096_1_0_0_1_n_n_wf : DotDims.WF S8192x2048 S2048x4096 S8192x4096 [1] [0] [0] [1] [] []

variable [Facts₀]

def dot_S8192x4096_S4096x2048_S8192x2048_1_0_0_1_n_n : DotDims S8192x4096 S4096x2048 S8192x2048 where
  lhsContracting := [1]
  rhsContracting := [0]
  lhsNonContracting := [0]
  rhsNonContracting := [1]
  lhsBatch := []
  rhsBatch := []
  wf := dot_S8192x4096_S4096x2048_S8192x2048_1_0_0_1_n_n_wf
def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf

class Facts : Prop extends Facts₀ where

variable [Facts]
-- ==== Proof.RegionArrays.lean ====
/-
  The four arrays the kernel's region reads, as the host operations before it leave them, read at an index.

  Before the region the program changes the float format of `inputs` (the identity on extended reals); multiplies `U`
  by `S` broadcast along the rows, so entry `(k, r)` is `U (k, r) · S r`; transposes `V`, so entry `(r, q)` is `V (q, r)`;
  and reshapes `bias` to one row, so entry `(0, q)` is `bias q`.
-/
import proofs.«106703_j5970004541710_2_alg».proof.Proof.Gen.KernelIdeal.Frame
import Idealize.ShloMosaic.Lib.StableHlo.Run
import Idealize.ShloMosaic.Lib.ValueIdx
import Idealize.ShloMosaic.Lib.Pipeline.Value

noncomputable section

namespace Cert.KernelIdeal.Arrays

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## The five arguments on a core, as arrays of extended reals -/

abbrev inputs (c : Dev nD) : S8192x4096.Idx → EReal := m ((c : Thread nD τ).loc main_arg0)
abbrev matU (c : Dev nD) : S4096x2048.Idx → EReal := m ((c : Thread nD τ).loc main_arg1)
abbrev vecS (c : Dev nD) : S2048.Idx → EReal := m ((c : Thread nD τ).loc main_arg2)
abbrev matV (c : Dev nD) : S4096x2048.Idx → EReal := m ((c : Thread nD τ).loc main_arg3)
abbrev bias (c : Dev nD) : S4096.Idx → EReal := m ((c : Thread nD τ).loc main_arg4)

/-! ## The four arrays the region's input windows stage, as the region finds them -/

/-- The rows array: `inputs` in the narrower format. -/
def rows (c : Dev nD) : S8192x4096.Idx → EReal := V m c main_v0
/-- The pre-scaled matrix. -/
def scaled (c : Dev nD) : S4096x2048.Idx → EReal := V m c main_v4
/-- The transposed matrix. -/
def transposed (c : Dev nD) : S2048x4096.Idx → EReal := V m c main_v6
/-- The bias as one row. -/
def biasRow (c : Dev nD) : S1x4096.Idx → EReal := V m c main_v7

/-- The rows array is `inputs`. -/
theorem rows_apply (c : Dev nD) (i : S8192x4096.Idx) : rows m c i = inputs m c i := by
  have e : rows m c = truncf (F := Ideal) .bf16 (inputs m c) bitsLt_bf16_f32 := by
    dsimp only [rows, inputs, V, hostOps0]; after_results <;> rfl
  rw [e]; rfl

/-- The pre-scaled matrix at `(k, r)` is `U (k, r) · S r`. -/
theorem scaled_apply (c : Dev nD) (k : Fin 4096) (r : Fin 2048) :
    scaled m c (ix2 k r) = matU m c (ix2 k r) * vecS m c (ix1 r) := by
  have e : scaled m c = truncf (F := Ideal) .bf16 (mulf (matU m c)
          (broadcastInDim S4096x2048 ![0, 1] bcast_S1x2048_S4096x2048_0_1
            (broadcastInDim S1x2048 ![1] bcast_S2048_S1x2048_1 (vecS m c)))) bitsLt_bf16_f32 := by
    dsimp only [scaled, matU, vecS, V, hostOps0]; after_results <;> rfl
  rw [e, truncf_apply, mulf_apply]
  refine congrArg (matU m c (ix2 k r) * ·) ?_
  refine (broadcastInDim_apply _ bcast_S1x2048_S4096x2048_0_1 _ (ix2 k r) (ix2 (0 : Fin 1) r) (fun a => match a with
    | ⟨0, _⟩ => by show (0 : Nat) = if (1 : Nat) = 1 then 0 else _; rw [if_pos rfl]
    | ⟨1, _⟩ => by show r.val = if (2048 : Nat) = 1 then 0 else r.val; rw [if_neg (by decide)])).trans ?_
  exact broadcastInDim_apply _ bcast_S2048_S1x2048_1 _ (ix2 (0 : Fin 1) r) (ix1 r) (fun a => match a with
    | ⟨0, _⟩ => by show r.val = if (2048 : Nat) = 1 then 0 else r.val; rw [if_neg (by decide)])

/-- The transposed matrix at `(r, q)` is `V (q, r)`. -/
theorem transposed_apply (c : Dev nD) (r : Fin 2048) (q : Fin 4096) :
    transposed m c (ix2 r q) = matV m c (ix2 q r) := by
  have e : transposed m c = truncf (F := Ideal) .bf16 (transpose S2048x4096 [1, 0] (matV m c)
          transposes_S4096x2048_S2048x4096_1_0) bitsLt_bf16_f32 := by
    dsimp only [transposed, matV, V, hostOps0]; after_results <;> rfl
  rw [e, truncf_apply]
  exact transpose_apply [1, 0] _ transposes_S4096x2048_S2048x4096_1_0 (ix2 r q) (ix2 q r) (fun b => match b with
    | ⟨0, _⟩ => rfl
    | ⟨1, _⟩ => rfl)

/-- The bias row at `(0, q)` is `bias q`. -/
theorem biasRow_apply (c : Dev nD) (q : Fin 4096) : biasRow m c (ix2 (0 : Fin 1) q) = bias m c (ix1 q) := by
  have e : biasRow m c = shapeCast S1x4096 (bias m c) shapeCasts_S4096_S1x4096 := by
    dsimp only [biasRow, bias, V, hostOps0]; after_results <;> rfl
  rw [e]
  exact shapeCast_apply _ shapeCasts_S4096_S1x4096 (ix2 (0 : Fin 1) q) (ix1 q) (by
    rw [Shape.rowMajor_val_one, Shape.rowMajor_val_two]
    show q.val = 0 * 4096 + q.val
    omega)

end Cert.KernelIdeal.Arrays

end
-- ==== Proof.BodyValue.lean ====
/-
  The kernel body's arithmetic, read at one element of its output block.

  At a grid point the body holds a [128, 4096] slab `a` of rows, the whole pre-scaled matrix `w : [4096, 2048]`, the
  whole transposed matrix `vt : [2048, 4096]` and the bias row `b : [1, 4096]`. It contracts `a` with `w` into a zero
  accumulator, changes the float format of the result (the identity on extended reals), contracts that with `vt` into a
  zero accumulator, adds the bias row broadcast down the rows, and takes the maximum with the splat of the zero word.
  So the stored value at `(p, q)` is
  `max ((∑ᵣ (∑ₖ a (p, k) · w (k, r)) · vt (r, q)) + b (0, q)) 0`.
-/
import proofs.«106703_j5970004541710_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The first contraction: a slab of rows against the pre-scaled matrix -/

theorem first_lhs_row (i : S128x2048.Idx) (q : dot_S128x4096_S4096x2048_S128x2048_1_0_0_1_n_n.contr.Idx) :
    (dot_S128x4096_S4096x2048_S128x2048_1_0_0_1_n_n.lhsIdx i q 0).val = (i 0).val := by
  unfold DotDims.lhsIdx
  rw [dif_neg (show ¬(0 : Fin S128x4096.rank) ∈ dot_S128x4096_S4096x2048_S128x2048_1_0_0_1_n_n.lhsBatch by decide), dif_pos (show (0 : Fin S128x4096.rank) ∈ dot_S128x4096_S4096x2048_S128x2048_1_0_0_1_n_n.lhsNonContracting by decide)]
  rfl
theorem first_rhs_col (i : S128x2048.Idx) (q : dot_S128x4096_S4096x2048_S128x2048_1_0_0_1_n_n.contr.Idx) :
    (dot_S128x4096_S4096x2048_S128x2048_1_0_0_1_n_n.rhsIdx i q 1).val = (i 1).val := by
  unfold DotDims.rhsIdx
  rw [dif_neg (show ¬(1 : Fin S4096x2048.rank) ∈ dot_S128x4096_S4096x2048_S128x2048_1_0_0_1_n_n.rhsBatch by decide), dif_pos (show (1 : Fin S4096x2048.rank) ∈ dot_S128x4096_S4096x2048_S128x2048_1_0_0_1_n_n.rhsNonContracting by decide)]
  rfl

/-- The first matrix product into a zero accumulator, at `(p, r)`: the inner product of row `p` with column `r`. -/
theorem first_product_apply (a : FVec Ideal S128x4096 .bf16) (w : FVec Ideal S4096x2048 .bf16) (p : Fin 128) (r : Fin 2048) :
    FloatOps.matmul dot_S128x4096_S4096x2048_S128x2048_1_0_0_1_n_n none a w (constant (F := Ideal) S128x2048 .f32 0x00000000#32) (ix2 p r)
      = ∑ k : Fin 4096, a (ix2 p k) * w (ix2 k r) := by
  rw [Ideal.matmul_constant_zero_apply, ← Equiv.sum_comp (contrEquiv1 dot_S128x4096_S4096x2048_S128x2048_1_0_0_1_n_n 4096 rfl rfl).symm]
  refine Finset.sum_congr rfl fun k _ => ?_
  have hk := contrEquiv1_symm_val dot_S128x4096_S4096x2048_S128x2048_1_0_0_1_n_n 4096 rfl rfl k
  have el : dot_S128x4096_S4096x2048_S128x2048_1_0_0_1_n_n.lhsIdx (ix2 p r) ((contrEquiv1 dot_S128x4096_S4096x2048_S128x2048_1_0_0_1_n_n 4096 rfl rfl).symm k) = ix2 p k := funext fun d => Fin.ext (by
    match d with
    | ⟨0, _⟩ => exact first_lhs_row _ _
    | ⟨1, _⟩ => exact (dot_S128x4096_S4096x2048_S128x2048_1_0_0_1_n_n.lhsIdx_val_of_single rfl _ _).trans hk)
  have er : dot_S128x4096_S4096x2048_S128x2048_1_0_0_1_n_n.rhsIdx (ix2 p r) ((contrEquiv1 dot_S128x4096_S4096x2048_S128x2048_1_0_0_1_n_n 4096 rfl rfl).symm k) = ix2 k r := funext fun d => Fin.ext (by
    match d with
    | ⟨0, _⟩ => exact (dot_S128x4096_S4096x2048_S128x2048_1_0_0_1_n_n.rhsIdx_val_of_single rfl _ _).trans hk
    | ⟨1, _⟩ => exact first_rhs_col _ _)
  rw [el, er]

/-! ## The second contraction: the hidden slab against the transposed matrix -/

theorem second_lhs_row (i : S128x4096.Idx) (q : dot_S128x2048_S2048x4096_S128x4096_1_0_0_1_n_n.contr.Idx) :
    (dot_S128x2048_S2048x4096_S128x4096_1_0_0_1_n_n.lhsIdx i q 0).val = (i 0).val := by
  unfold DotDims.lhsIdx
  rw [dif_neg (show ¬(0 : Fin S128x2048.rank) ∈ dot_S128x2048_S2048x4096_S128x4096_1_0_0_1_n_n.lhsBatch by decide), dif_pos (show (0 : Fin S128x2048.rank) ∈ dot_S128x2048_S2048x4096_S128x4096_1_0_0_1_n_n.lhsNonContracting by decide)]
  rfl
theorem second_rhs_col (i : S128x4096.Idx) (q : dot_S128x2048_S2048x4096_S128x4096_1_0_0_1_n_n.contr.Idx) :
    (dot_S128x2048_S2048x4096_S128x4096_1_0_0_1_n_n.rhsIdx i q 1).val = (i 1).val := by
  unfold DotDims.rhsIdx
  rw [dif_neg (show ¬(1 : Fin S2048x4096.rank) ∈ dot_S128x2048_S2048x4096_S128x4096_1_0_0_1_n_n.rhsBatch by decide), dif_pos (show (1 : Fin S2048x4096.rank) ∈ dot_S128x2048_S2048x4096_S128x4096_1_0_0_1_n_n.rhsNonContracting by decide)]
  rfl

/-- The second matrix product into a zero accumulator, at `(p, q)`. -/
theorem second_product_apply (h : FVec Ideal S128x2048 .bf16) (vt : FVec Ideal S2048x4096 .bf16) (p : Fin 128) (q : Fin 4096) :
    FloatOps.matmul dot_S128x2048_S2048x4096_S128x4096_1_0_0_1_n_n none h vt (constant (F := Ideal) S128x4096 .f32 0x00000000#32) (ix2 p q)
      = ∑ r : Fin 2048, h (ix2 p r) * vt (ix2 r q) := by
  rw [Ideal.matmul_constant_zero_apply, ← Equiv.sum_comp (contrEquiv1 dot_S128x2048_S2048x4096_S128x4096_1_0_0_1_n_n 2048 rfl rfl).symm]
  refine Finset.sum_congr rfl fun r _ => ?_
  have hr := contrEquiv1_symm_val dot_S128x2048_S2048x4096_S128x4096_1_0_0_1_n_n 2048 rfl rfl r
  have el : dot_S128x2048_S2048x4096_S128x4096_1_0_0_1_n_n.lhsIdx (ix2 p q) ((contrEquiv1 dot_S128x2048_S2048x4096_S128x4096_1_0_0_1_n_n 2048 rfl rfl).symm r) = ix2 p r := funext fun d => Fin.ext (by
    match d with
    | ⟨0, _⟩ => exact second_lhs_row _ _
    | ⟨1, _⟩ => exact (dot_S128x2048_S2048x4096_S128x4096_1_0_0_1_n_n.lhsIdx_val_of_single rfl _ _).trans hr)
  have er : dot_S128x2048_S2048x4096_S128x4096_1_0_0_1_n_n.rhsIdx (ix2 p q) ((contrEquiv1 dot_S128x2048_S2048x4096_S128x4096_1_0_0_1_n_n 2048 rfl rfl).symm r) = ix2 r q := funext fun d => Fin.ext (by
    match d with
    | ⟨0, _⟩ => exact (dot_S128x2048_S2048x4096_S128x4096_1_0_0_1_n_n.rhsIdx_val_of_single rfl _ _).trans hr
    | ⟨1, _⟩ => exact second_rhs_col _ _)
  rw [el, er]

/-! ## The bias row broadcast down the rows -/

/-- The bias row `[1, 4096]` broadcast to `[128, 4096]` reads, at `(p, q)`, the row's entry `q`. -/
theorem bias_rows_apply (b : FVec Ideal S1x4096 .f32) (p : Fin 128) (q : Fin 4096) :
    broadcastTo S128x4096 b broadcasts_S1x4096_S128x4096 (ix2 p q) = b (ix2 (0 : Fin 1) q) :=
  broadcastTo_apply b broadcasts_S1x4096_S128x4096 (ix2 p q) (ix2 (0 : Fin 1) q) (fun d => match d with
    | ⟨0, _⟩ => by show (0 : Nat) = if (1 : Nat) = 1 then 0 else _; rw [if_pos rfl]
    | ⟨1, _⟩ => by show q.val = if (4096 : Nat) = 1 then 0 else q.val; rw [if_neg (by decide)])

/-! ## The stored value -/

/-- THE BODY'S STORED VALUE at `(p, q)`, as a term of its four loaded blocks. -/
theorem stored_apply (a : Vec Ideal S128x4096 .bf16) (w : Vec Ideal S4096x2048 .bf16) (vt : Vec Ideal S2048x4096 .bf16)
    (b : Vec Ideal S1x4096 .f32) (p : Fin 128) (q : Fin 4096) :
    k0_pay1 (F := Ideal) a w vt b (ix2 p q)
      = max ((∑ r : Fin 2048, (∑ k : Fin 4096, a (ix2 p k) * w (ix2 k r)) * vt (ix2 r q)) + b (ix2 (0 : Fin 1) q))
          (Ideal.ofBits .f32 0x00000000#32) := by
  unfold k0_pay1
  simp only [shapeCast_self]
  rw [maximumf_apply, addf_apply, broadcast_apply, bias_rows_apply]
  simp only [matmul]
  rw [second_product_apply]
  simp only [truncf_apply, first_product_apply]
  rfl

end Cert.KernelIdeal.Body

end
-- ==== Proof.LowRankSpec.lean ====
/-
  The specification of the low-rank dense layer, and the one algebraic law its two spellings differ by.

  For inputs `x : [8192, 4096]`, `u : [4096, 2048]`, `s : [2048]`, `v : [4096, 2048]`, `bias : [4096]` the layer is
  `relu (((x · u) ∘ s) · vᵀ + bias)`: the hidden value at row `b` and rank index `r` is the inner product of row `b`
  of `x` with column `r` of `u`, scaled by `s r`; the output at `(b, j)` is the inner product of the hidden row `b`
  with row `j` of `v`, plus `bias j`, clamped below at zero.

  One spelling scales AFTER the first contraction (`(∑ₖ x b k · u k r) · s r`), the other scales the matrix first
  (`∑ₖ x b k · (u k r · s r)`). On the extended reals a factor moves across a sum only when nothing is infinite, so the
  law `sum_mul_scale` is stated for families of real numbers.
-/
import Idealize.ShloMosaic.PureOps.Ideal
import Idealize.ShloMosaic.Lib.ValueIdx

noncomputable section

open scoped BigOperators

namespace Cert.LowRank

open Idealize.ShloMosaic Idealize.ShloMosaic.ValueIdx

/-- The hidden value at row `b`, rank index `r`: the first contraction, then the scale. -/
def hidden (x : (⟨2, ![8192, 4096]⟩ : Shape).Idx → EReal) (u : (⟨2, ![4096, 2048]⟩ : Shape).Idx → EReal)
    (s : (⟨1, ![2048]⟩ : Shape).Idx → EReal) (b : Fin 8192) (r : Fin 2048) : EReal :=
  (∑ k : Fin 4096, x (ix2 b k) * u (ix2 k r)) * s (ix1 r)

/-- The layer's output array, index by index: the second contraction of the hidden row with a row of `v`, the bias
    added, the maximum with the zero word's value. -/
def layer (x : (⟨2, ![8192, 4096]⟩ : Shape).Idx → EReal) (u : (⟨2, ![4096, 2048]⟩ : Shape).Idx → EReal)
    (s : (⟨1, ![2048]⟩ : Shape).Idx → EReal) (v : (⟨2, ![4096, 2048]⟩ : Shape).Idx → EReal)
    (bias : (⟨1, ![4096]⟩ : Shape).Idx → EReal) : (⟨2, ![8192, 4096]⟩ : Shape).Idx → EReal :=
  fun i => max ((∑ r : Fin 2048, hidden x u s (i 0) r * v (ix2 (i 1) r)) + bias (ix1 (i 1)))
    (Ideal.ofBits .f32 0x00000000#32)

/-- The coercion of the reals into the extended reals commutes with finite sums. -/
theorem coe_finset_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- THE LAW: for real families `x`, `u` and a real scale `s`, scaling each term's second factor is scaling the sum. -/
theorem sum_mul_scale {ι : Type*} [Fintype ι] (x u : ι → EReal) (s : EReal)
    (hx : ∀ k, ∃ a : ℝ, x k = a) (hu : ∀ k, ∃ a : ℝ, u k = a) (hs : ∃ a : ℝ, s = a) :
    ∑ k, x k * (u k * s) = (∑ k, x k * u k) * s := by
  choose x' hx' using hx
  choose u' hu' using hu
  obtain ⟨s', rfl⟩ := hs
  have hl : ∀ k, x k * (u k * (s' : EReal)) = ((x' k * (u' k * s') : ℝ) : EReal) := fun k => by
    rw [hx', hu', EReal.coe_mul, EReal.coe_mul]
  have hr : ∀ k, x k * u k = ((x' k * u' k : ℝ) : EReal) := fun k => by rw [hx', hu', EReal.coe_mul]
  rw [Finset.sum_congr rfl (fun k _ => hl k), Finset.sum_congr rfl (fun k _ => hr k), ← coe_finset_sum,
    ← coe_finset_sum, ← EReal.coe_mul, Finset.sum_mul]
  exact congrArg _ (Finset.sum_congr rfl fun k _ => by ring)

end Cert.LowRank

end
-- ==== Proof.PointLayer.lean ====
/-
  One element of the kernel's output block is the layer's value at the array index the element is written to.

  Given the body's four blocks `a`, `w`, `vt`, `brow` and the five argument arrays, suppose that row `p` of `a` is row
  `b` of `inputs`, that `w (k, r) = U (k, r) · S r`, that column `q` of `vt` is row `q` of `V`, and that `brow (0, q)`
  is `bias q`. Then the stored value at `(p, q)` is
  `max ((∑ᵣ (∑ₖ inputs (b, k) · (U (k, r) · S r)) · V (q, r)) + bias q) 0`,
  and the layer at `(b, q)` is the same with `(∑ₖ inputs (b, k) · U (k, r)) · S r` inside: equal when `inputs`, `U`
  and `S` hold real numbers, by the law that a real scale moves across a finite sum of real products.
-/
import proofs.«106703_j5970004541710_2_alg».proof.Proof.BodyValue
import proofs.«106703_j5970004541710_2_alg».proof.Proof.LowRankSpec

noncomputable section

namespace Cert.KernelIdeal.Body

open Cert.KernelIdeal Cert.KernelIdeal.Gen Idealize.ShloMosaic Idealize.ShloMosaic.ValueIdx

theorem stored_eq_layer (a : Vec Ideal S128x4096 .bf16) (w : Vec Ideal S4096x2048 .bf16) (vt : Vec Ideal S2048x4096 .bf16)
    (brow : Vec Ideal S1x4096 .f32)
    (x : S8192x4096.Idx → EReal) (u : S4096x2048.Idx → EReal) (s : S2048.Idx → EReal) (v : S4096x2048.Idx → EReal)
    (bias : S4096.Idx → EReal)
    (hx : ∀ i, ∃ r : ℝ, x i = r) (hu : ∀ i, ∃ r : ℝ, u i = r) (hs : ∀ i, ∃ r : ℝ, s i = r)
    (p : Fin 128) (q : Fin 4096) (b : Fin 8192)
    (ea : ∀ k : Fin 4096, a (ix2 p k) = x (ix2 b k))
    (ew : ∀ (k : Fin 4096) (r : Fin 2048), w (ix2 k r) = u (ix2 k r) * s (ix1 r))
    (evt : ∀ r : Fin 2048, vt (ix2 r q) = v (ix2 q r))
    (eb : brow (ix2 (0 : Fin 1) q) = bias (ix1 q)) :
    k0_pay1 (F := Ideal) a w vt brow (ix2 p q) = Cert.LowRank.layer x u s v bias (ix2 b q) := by
  rw [stored_apply]
  simp only [ea, ew, evt, eb]
  show _ = max ((∑ r : Fin 2048, ((∑ k : Fin 4096, x (ix2 b k) * u (ix2 k r)) * s (ix1 r)) * v (ix2 q r)) + bias (ix1 q))
      (Ideal.ofBits .f32 0x00000000#32)
  refine congrArg (fun z => max (z + bias (ix1 q)) (Ideal.ofBits .f32 0x00000000#32)) (Finset.sum_congr rfl fun r _ => ?_)
  refine congrArg (· * v (ix2 q r)) ?_
  exact Cert.LowRank.sum_mul_scale (fun k : Fin 4096 => x (ix2 b k)) (fun k : Fin 4096 => u (ix2 k r)) (s (ix1 r))
    (fun k => hx _) (fun k => hu _) (hs _)

end Cert.KernelIdeal.Body

end
-- ==== Proof.KernelLayer.lean ====
/-
  The kernel's result array after the run is the layer of its five arguments, when `inputs`, `U` and `S` hold real numbers.

  The grid has 64 points; point `t` reads rows `128 t … 128 t + 127` of the rows array and the whole of the other three
  arrays, and writes back rows `128 t … 128 t + 127` of the result. So every block the body sees is a restriction of an
  array the region finds (`rows_block_apply` … `biasRow_block_apply`), what point `t` writes back is block `t` of the
  layer (`flushed_eq`), the 64 row blocks cover the result array (`cover`), and the array ends holding the layer
  (`final`, `run`).
-/
import proofs.«106703_j5970004541710_2_alg».proof.Proof.Gen.KernelIdeal.Value
import proofs.«106703_j5970004541710_2_alg».proof.Proof.RegionArrays
import proofs.«106703_j5970004541710_2_alg».proof.Proof.PointLayer

noncomputable section

namespace Cert.KernelIdeal.Layer

open Cert.KernelIdeal Cert.KernelIdeal.Gen Idealize.ShloMosaic Idealize.ShloMosaic.TcCoe Idealize.SL.Sem
open Idealize.ShloMosaic.Pipeline (Dat)
open Idealize.ShloMosaic.ValueIdx Cert.KernelIdeal.Arrays

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the grid: the rows window and the result window are at block row `t`, column 0; the
    other three windows are at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## Each input block is a restriction of the array its window stages -/

/-- Row `p` of the rows block at point `t` is row `128 t + p` of `inputs`. -/
theorem rows_block_apply (c : Dev nD) (t : Fin cfg0.N) (p : Fin 128) (k : Fin 4096) (b : Fin 8192)
    (hb : b.val = 128 * t.val + p.val) :
    (iblk m c 0 t : Vec Ideal S128x4096 .bf16) (ix2 p k) = inputs m c (ix2 b k) := by
  obtain ⟨e0, e1, -⟩ := block_indices t
  refine Eq.trans ?_ (rows_apply m c (ix2 b k))
  unfold iblk
  rw [View.read_apply]
  show rows m c _ = rows m c (ix2 b k)
  refine congrArg (rows m c) (funext fun d => Fin.ext ?_)
  match d with
  | ⟨0, _⟩ => show win0_0.index t (0 : Fin 2) * 128 + 1 * p.val = b.val; rw [e0, hb]; omega
  | ⟨1, _⟩ => show win0_0.index t (1 : Fin 2) * 4096 + 1 * k.val = k.val; rw [e1]; omega

/-- The pre-scaled block at every point is the whole pre-scaled matrix. -/
theorem scaled_block_apply (c : Dev nD) (t : Fin cfg0.N) (k : Fin 4096) (r : Fin 2048) :
    (iblk m c 1 t : Vec Ideal S4096x2048 .bf16) (ix2 k r) = matU m c (ix2 k r) * vecS m c (ix1 r) := by
  obtain ⟨-, -, e0, e1, -⟩ := block_indices t
  refine Eq.trans ?_ (scaled_apply m c k r)
  unfold iblk
  rw [View.read_apply]
  show scaled m c _ = scaled m c (ix2 k r)
  refine congrArg (scaled m c) (funext fun d => Fin.ext ?_)
  match d with
  | ⟨0, _⟩ => show win0_1.index t (0 : Fin 2) * 4096 + 1 * k.val = k.val; rw [e0]; omega
  | ⟨1, _⟩ => show win0_1.index t (1 : Fin 2) * 2048 + 1 * r.val = r.val; rw [e1]; omega

/-- The transposed block at every point is the whole transposed matrix. -/
theorem transposed_block_apply (c : Dev nD) (t : Fin cfg0.N) (r : Fin 2048) (q : Fin 4096) :
    (iblk m c 2 t : Vec Ideal S2048x4096 .bf16) (ix2 r q) = matV m c (ix2 q r) := by
  obtain ⟨-, -, -, -, e0, e1, -⟩ := block_indices t
  refine Eq.trans ?_ (transposed_apply m c r q)
  unfold iblk
  rw [View.read_apply]
  show transposed m c _ = transposed m c (ix2 r q)
  refine congrArg (transposed m c) (funext fun d => Fin.ext ?_)
  match d with
  | ⟨0, _⟩ => show win0_2.index t (0 : Fin 2) * 2048 + 1 * r.val = r.val; rw [e0]; omega
  | ⟨1, _⟩ => show win0_2.index t (1 : Fin 2) * 4096 + 1 * q.val = q.val; rw [e1]; omega

/-- The bias block at every point is the whole bias row. -/
theorem biasRow_block_apply (c : Dev nD) (t : Fin cfg0.N) (q : Fin 4096) :
    (iblk m c 3 t : Vec Ideal S1x4096 .f32) (ix2 (0 : Fin 1) q) = bias m c (ix1 q) := by
  obtain ⟨-, -, -, -, -, -, e0, e1, -⟩ := block_indices t
  refine Eq.trans ?_ (biasRow_apply m c q)
  unfold iblk
  rw [View.read_apply]
  show biasRow m c _ = biasRow m c (ix2 (0 : Fin 1) q)
  refine congrArg (biasRow m c) (funext fun d => Fin.ext ?_)
  match d with
  | ⟨0, _⟩ => show win0_3.index t (0 : Fin 2) * 1 + 1 * (0 : Fin 1).val = (0 : Fin 1).val; rw [e0]; rfl
  | ⟨1, _⟩ => show win0_3.index t (1 : Fin 2) * 4096 + 1 * q.val = q.val; rw [e1]; omega

/-! ## What a point writes back -/

/-- WHAT POINT `t` WRITES BACK is block `t` of the layer of the arguments. -/
theorem flushed_eq (hx : ∀ c i, ∃ r : ℝ, inputs m c i = r) (hu : ∀ c i, ∃ r : ℝ, matU m c i = r)
    (hs : ∀ c i, ∃ r : ℝ, vecS m c i = r) (c : Dev nD) (t : Fin cfg0.N) :
    (dats m 0 c).flushed 4 t = ((cfg0.win 4).blk t).view.read (Elt Ideal)
      (Cert.LowRank.layer (inputs m c) (matU m c) (vecS m c) (matV m c) (bias m c)) := by
  rw [Cert.KernelIdeal.Value.flushed4]
  unfold out0_4
  rw [View.canon_unit_zero zero_offsets]
  simp only [View.ld_unit_zero (S := S128x4096) zero_offsets, View.ld_unit_zero (S := S4096x2048) zero_offsets,
    View.ld_unit_zero (S := S2048x4096) zero_offsets, View.ld_unit_zero (S := S1x4096) zero_offsets]
  obtain ⟨-, -, -, -, -, -, -, -, e0, e1⟩ := block_indices t
  have hN : cfg0.N = 64 := N_0
  refine funext fun (j : S128x4096.Idx) => ?_
  obtain ⟨p, q, rfl⟩ : ∃ (p : Fin 128) (q : Fin 4096), j = ix2 p q := ⟨j 0, j 1, eq_ix2 j⟩
  have hb : 128 * t.val + p.val < 8192 := by have := t.isLt; have := p.isLt; omega
  show k0_pay1 (F := Ideal) (iblk m c 0 t) (iblk m c 1 t) (iblk m c 2 t) (iblk m c 3 t) (ix2 p q)
      = Cert.LowRank.layer (inputs m c) (matU m c) (vecS m c) (matV m c) (bias m c) (((cfg0.win 4).blk t).view.emb (ix2 p q))
  have hemb : ((cfg0.win 4).blk t).view.emb (ix2 p q) = ix2 (⟨128 * t.val + p.val, hb⟩ : Fin 8192) q := by
    funext d; apply Fin.ext
    match d with
    | ⟨0, _⟩ => show win0_4.index t (0 : Fin 2) * 128 + 1 * p.val = 128 * t.val + p.val; rw [e0]; omega
    | ⟨1, _⟩ => show win0_4.index t (1 : Fin 2) * 4096 + 1 * q.val = q.val; rw [e1]; omega
  rw [hemb]
  exact Cert.KernelIdeal.Body.stored_eq_layer (iblk m c 0 t) (iblk m c 1 t) (iblk m c 2 t) (iblk m c 3 t)
    (inputs m c) (matU m c) (vecS m c) (matV m c) (bias m c) (hx c) (hu c) (hs c) p q ⟨128 * t.val + p.val, hb⟩
    (fun k => rows_block_apply m c t p k _ rfl) (fun k r => scaled_block_apply m c t k r)
    (fun r => transposed_block_apply m c t r q) (biasRow_block_apply m c t q)

/-! ## The row blocks cover the result array -/

/-- An index of the result array is in point `t`'s block iff each coordinate is in the block's range on its axis. -/
theorem mem_block (t : Fin cfg0.N) (i : S8192x4096.Idx) :
    i ∈ ((cfg0.win 4).blk t).view.set ↔ ∀ a : Fin 2, win0_4.index t a * S128x4096.size a ≤ (i a).val
      ∧ (i a).val < win0_4.index t a * S128x4096.size a + S128x4096.size a := by
  show i ∈ ((View.whole main_v8).slice (win0_4.rect t)).set ↔ _
  rw [View.set_slice_whole, Rect.mem_set_unit]
  exact Iff.rfl

/-- Row `b` of the result is in the block of point `b / 128`. -/
theorem cover (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 64 := N_0
  have ht : (i 0).val / 128 < cfg0.N := by rw [hN]; omega
  obtain ⟨-, -, -, -, -, -, -, -, e0, e1⟩ := block_indices ⟨(i 0).val / 128, ht⟩
  refine ⟨⟨(i 0).val / 128, ht⟩, flush0_4 _, ?_⟩
  rw [mem_block]
  intro a
  match a with
  | ⟨0, _⟩ =>
    show win0_4.index ⟨(i 0).val / 128, ht⟩ (0 : Fin 2) * 128 ≤ (i 0).val
      ∧ (i 0).val < win0_4.index ⟨(i 0).val / 128, ht⟩ (0 : Fin 2) * 128 + 128
    rw [e0]; show (i 0).val / 128 * 128 ≤ (i 0).val ∧ (i 0).val < (i 0).val / 128 * 128 + 128; omega
  | ⟨1, _⟩ =>
    show win0_4.index ⟨(i 0).val / 128, ht⟩ (1 : Fin 2) * 4096 ≤ (i 1).val
      ∧ (i 1).val < win0_4.index ⟨(i 0).val / 128, ht⟩ (1 : Fin 2) * 4096 + 4096
    rw [e1]; omega

/-! ## The array after the run, and the run -/

/-- THE RESULT ARRAY after the run is the layer of the arguments. -/
theorem final (hx : ∀ c i, ∃ r : ℝ, inputs m c i = r) (hu : ∀ c i, ∃ r : ℝ, matU m c i = r)
    (hs : ∀ c i, ∃ r : ℝ, vecS m c i = r) (c : Dev nD) :
    (dats m 0 c).arrAt 4 cfg0.N = Cert.LowRank.layer (inputs m c) (matU m c) (vecS m c) (matV m c) (bias m c) :=
  (dats m 0 c).arrAt_eq_of_cover 4 (Cert.LowRank.layer (inputs m c) (matU m c) (vecS m c) (matV m c) (bias m c))
    (fun t _ => flushed_eq m hx hu hs c t) cover

/-- The run, read: the result array at the layer of the arguments, the arguments unchanged. -/
theorem run (hx : ∀ c i, ∃ r : ℝ, inputs m c i = r) (hu : ∀ c i, ∃ r : ℝ, matU m c i = r)
    (hs : ∀ c i, ∃ r : ℝ, vecS m c i = r) :
    θ_run defs (onTc (τ := τ) (main (F := Ideal))) ⟨m, fun _ => 0, ρ⟩ fun r => ∀ c : Dev nD,
      r.2.mem ((c : Thread nD τ).loc main_v8)
        = Cert.LowRank.layer (inputs m c) (matU m c) (vecS m c) (matV m c) (bias m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m hx hu hs c), (h c).2⟩)
    (Cert.KernelIdeal.Value.run_blocks m ρ)

end Cert.KernelIdeal.Layer

end
-- ==== Proof.ReferenceLayer.lean ====
/-
  The reference computes the layer: its last stage, read at an index through the stages before it, is the
  specification `Cert.LowRank.layer` of its five arguments.

  Stage by stage: the first `dot_general` at `(b, r)` is `∑ₖ x (b, k) · u (k, r)`; the scale vector, broadcast along the
  rows, reads `s r` there; the transposed `v` at `(r, j)` reads `v (j, r)`; the second `dot_general` at `(b, j)` sums
  the products over `r`; the bias, broadcast along the rows, reads `bias j`; the last stage takes the maximum with the
  broadcast zero constant.
-/
import proofs.«106703_j5970004541710_2_alg».proof.Proof.Gen.ReferenceIdeal.Read
import proofs.«106703_j5970004541710_2_alg».proof.Proof.LowRankSpec

noncomputable section

namespace Cert.ReferenceIdeal.Layer

open Cert.ReferenceIdeal Cert.ReferenceIdeal.Read Idealize.ShloMosaic Idealize.ShloMosaic.ValueIdx

/-- The left operand's index of the first contraction, under the second one's: row `b` of `x`, column `k`. -/
theorem lidx_first (i : S8192x4096.Idx) (r : Fin 2048) (k : Fin 4096) :
    lidx_main_v0 (lidx_main_v5 i r) k = ix2 (i 0) k :=
  funext fun a => Fin.ext (by match a with | ⟨0, _⟩ => rfl | ⟨1, _⟩ => rfl)

/-- The right operand's index of the first contraction: row `k` of `u`, column `r`. -/
theorem ridx_first (i : S8192x4096.Idx) (r : Fin 2048) (k : Fin 4096) :
    ridx_main_v0 (lidx_main_v5 i r) k = ix2 k r :=
  funext fun a => Fin.ext (by match a with | ⟨0, _⟩ => rfl | ⟨1, _⟩ => rfl)

/-- The scale vector's index under both broadcasts: entry `r`. -/
theorem idx_scale (i : S8192x4096.Idx) (r : Fin 2048) :
    idx_main_v1 (idx_main_v2 (lidx_main_v5 i r)) = ix1 r :=
  funext fun a => Fin.ext (by match a with | ⟨0, _⟩ => rfl)

/-- The transposed operand's index: row `j` of `v`, column `r`. -/
theorem idx_transposed (i : S8192x4096.Idx) (r : Fin 2048) :
    idx_main_v4 (ridx_main_v5 i r) = ix2 (i 1) r :=
  funext fun a => Fin.ext (by match a with | ⟨0, _⟩ => rfl | ⟨1, _⟩ => rfl)

/-- The bias vector's index under both broadcasts: entry `j`. -/
theorem idx_bias (i : S8192x4096.Idx) : idx_main_v6 (idx_main_v7 i) = ix1 (i 1) :=
  funext fun a => Fin.ext (by match a with | ⟨0, _⟩ => rfl)

/-- THE REFERENCE IS THE LAYER: its last stage is `Cert.LowRank.layer` of the arguments. -/
theorem last_stage_eq (x0 : (⟨S8192x4096, .f32⟩ : BufTy).Contents (Elt Ideal)) (x1 : (⟨S4096x2048, .f32⟩ : BufTy).Contents (Elt Ideal))
    (x2 : (⟨S2048, .f32⟩ : BufTy).Contents (Elt Ideal)) (x3 : (⟨S4096x2048, .f32⟩ : BufTy).Contents (Elt Ideal))
    (x4 : (⟨S4096, .f32⟩ : BufTy).Contents (Elt Ideal)) :
    val_main_v9 (F := Ideal) x0 x1 x2 x3 x4 = Cert.LowRank.layer x0 x1 x2 x3 x4 := by
  funext i
  rw [val_main_v9_apply, val_main_v8_apply, val_main_v5_apply, val_main_v7_apply, val_main_v6_apply,
    val_main_call0_v0_apply, val_main_call0_cst_apply]
  simp only [val_main_v3_apply, val_main_v0_apply, val_main_v2_apply, val_main_v1_apply, val_main_v4_apply,
    lidx_first, ridx_first, idx_scale, idx_transposed, idx_bias, Ideal.mulf_def, Ideal.addf_def, Ideal.maximumf_def,
    Ideal.ofBits_def]
  rfl

end Cert.ReferenceIdeal.Layer

end
-- ==== Proof.RealInputs.lean ====
/-
  What the precondition says of the inputs: every entry of the first three arguments is a real number.

  The precondition is the conjunction, over the five arguments, of "every entry's absolute value is below the word
  `0x7F800000`", each an `and`-reduction over the whole array. The word is `+∞` on the extended reals, and the absolute
  value is `max x (-x)`, so an entry satisfies it exactly when it is neither infinity: it is a real number.
-/
import proofs.«106703_j5970004541710_2_alg».proof.Pre_finite_inputs
import Idealize.ShloMosaic.PureOps.Ideal
import Idealize.ShloMosaic.Lib.ValueIdx
import Idealize.ShloMosaic.Lib.ReduceAll

noncomputable section

namespace Cert.Pre_finite_inputs.Finite

open Cert.Pre_finite_inputs Idealize.ShloMosaic

variable [Facts]

/-- The scalar shape has one index. -/
instance : Subsingleton S_.Idx := ⟨fun _ _ => funext fun d => d.elim0⟩

/-- The word the precondition compares against is `+∞`. -/
theorem inf_word : Ideal.ofBits .f32 0x7F800000#32 = ⊤ := by simp [Ideal.ofBits, Ideal.ieee]

/-- An extended real whose absolute value is below `+∞` is a real number. -/
theorem real_of_abs_lt_inf (x : EReal)
    (h : FloatOps.cmpf (F := Ideal) (φ := .f32) .olt (FloatOps.hostAbsf x) (FloatOps.ofBits .f32 0x7F800000#32) = 1#1) :
    ∃ a : ℝ, x = a := by
  change Ideal.cmp .olt (max x (-x)) (Ideal.ofBits .f32 0x7F800000#32) = 1#1 at h
  rw [inf_word] at h
  induction x using EReal.rec with
  | bot => simp [Ideal.cmp] at h
  | top => simp [Ideal.cmp] at h
  | coe r => exact ⟨r, rfl⟩

/-- Under the precondition the entries of `inputs`, `U` and `S` are real numbers. -/
theorem reals_of_pre (a0 : FVec Ideal S8192x4096 .f32) (a1 : FVec Ideal S4096x2048 .f32) (a2 : FVec Ideal S2048 .f32)
    (a3 : FVec Ideal S4096x2048 .f32) (a4 : FVec Ideal S4096 .f32)
    (h : fn (F := Ideal) a0 a1 a2 a3 a4 = fun _ => 1#1) :
    (∀ i, ∃ r : ℝ, a0 i = r) ∧ (∀ i, ∃ r : ℝ, a1 i = r) ∧ (∀ i, ∃ r : ℝ, a2 i = r) := by
  have h0 := congrFun h ValueIdx.ix0
  dsimp only [fn, fn_part1] at h0
  obtain ⟨h0123, -⟩ := IntOp.andi_eq_one.1 h0
  obtain ⟨h012, -⟩ := IntOp.andi_eq_one.1 h0123
  obtain ⟨h01, e2⟩ := IntOp.andi_eq_one.1 h012
  obtain ⟨e0, e1⟩ := IntOp.andi_eq_one.1 h01
  exact ⟨fun i => real_of_abs_lt_inf _ (Host.reduce_andi_all _ _ _ _ _ e0 i),
    fun i => real_of_abs_lt_inf _ (Host.reduce_andi_all _ _ _ _ _ e1 i),
    fun i => real_of_abs_lt_inf _ (Host.reduce_andi_all _ _ _ _ _ e2 i)⟩

end Cert.Pre_finite_inputs.Finite

end
-- ==== Proof.lean ====
/-
  The certificate of the low-rank dense layer: `relu (inputs · (U diag S) · Vᵀ + bias)` computed by a pipelined kernel
  against the same layer computed on the host in factored form.

  The kernel scales `U` by `S` before its region and contracts each slab of 128 rows of `inputs` with the scaled matrix,
  then with `Vᵀ`, adds the bias row and clamps at zero; the reference contracts `inputs` with `U`, scales the result by
  `S`, contracts with `Vᵀ`, adds the bias and clamps. On the extended reals every change of float format is the identity
  and a matrix product into a zero accumulator is the plain sum of products, so the two results differ only in where the
  factor `S r` stands: inside the sum over `k` (kernel) or outside it (reference). The precondition makes every entry of
  `inputs`, `U` and `S` a real number, and a real factor moves across a finite sum of real products; hence both programs
  end with the specification `Cert.LowRank.layer` of their arguments.

  The three frames: the two kernels' are the generated frame certificates; the reference's is its generated run with
  the result dropped. The idealization rewrote no operation, so `preserves` is trivial.
-/
import proofs.«106703_j5970004541710_2_alg».proof.Defs
import proofs.«106703_j5970004541710_2_alg».proof.Proof.Gen.Kernel
import proofs.«106703_j5970004541710_2_alg».proof.Proof.Gen.Kernel.Skeleton
import proofs.«106703_j5970004541710_2_alg».proof.Proof.Gen.Kernel.Launch
import proofs.«106703_j5970004541710_2_alg».proof.Proof.Gen.Kernel.Points
import proofs.«106703_j5970004541710_2_alg».proof.Proof.Gen.Kernel.Frame
import proofs.«106703_j5970004541710_2_alg».proof.Proof.Gen.KernelIdeal
import proofs.«106703_j5970004541710_2_alg».proof.Proof.Gen.KernelIdeal.Skeleton
import proofs.«106703_j5970004541710_2_alg».proof.Proof.Gen.KernelIdeal.Launch
import proofs.«106703_j5970004541710_2_alg».proof.Proof.Gen.KernelIdeal.Points
import proofs.«106703_j5970004541710_2_alg».proof.Proof.Gen.KernelIdeal.Frame
import proofs.«106703_j5970004541710_2_alg».proof.Proof.Gen.ReferenceIdeal
import proofs.«106703_j5970004541710_2_alg».proof.Proof.Gen.Pre_finite_inputs
import proofs.«106703_j5970004541710_2_alg».proof.Proof.Gen.KernelIdeal.Value
import proofs.«106703_j5970004541710_2_alg».proof.Proof.Gen.ReferenceIdeal.Run
import proofs.«106703_j5970004541710_2_alg».proof.Proof.Gen.ReferenceIdeal.Read
import proofs.«106703_j5970004541710_2_alg».proof.Proof.KernelLayer
import proofs.«106703_j5970004541710_2_alg».proof.Proof.ReferenceLayer
import proofs.«106703_j5970004541710_2_alg».proof.Proof.RealInputs
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernel_ideal : Cert.frame_KernelIdeal := fun m ρ _ => Cert.KernelIdeal.Gen.frame m ρ

/-- The idealized reference runs and leaves its arguments unchanged: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the layer of their arguments: the kernel's result array by its blocks, under the
    precondition's real entries; the reference's last stage index by index; and the arguments agree. -/
theorem algebraic : Cert.algebraic_KernelIdeal_ReferenceIdeal := by
  intro m ρ m' ρ' hpre hagree
  have hreal := fun c => Cert.Pre_finite_inputs.Finite.reals_of_pre _ _ _ _ _ (hpre c)
  refine ⟨_, Cert.KernelIdeal.Layer.run m ρ (fun c => (hreal c).1) (fun c => (hreal c).2.1) (fun c => (hreal c).2.2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.Layer.last_stage_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
